-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  shapeCasts_S64x2048x64_S4x16x2048x64 : S64x2048x64.ShapeCasts S4x16x2048x64
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .f32 = 32 ∨ (Rect.block (s := S64x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x2048x64.size a
  hwx0_3 : ∀ i : grid0.Coords, EltTy.bits .f32 = 32 ∨ (Rect.block (s := S64x2048x64) S1x1024x64.size (cc0_transform_3 i) (hinb0_3 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S4x16x2048x2048, .f32⟩
  | .hbm, ⟨10, _⟩ => ⟨S_, .f32⟩
  | .hbm, ⟨11, _⟩ => ⟨S4x16x2048, .f32⟩
  | .hbm, ⟨12, _⟩ => ⟨S_, .f32⟩
  | .hbm, ⟨13, _⟩ => ⟨S4x16x2048, .f32⟩
  | .hbm, ⟨14, _⟩ => ⟨S4x16x2048, .f32⟩
  | .hbm, ⟨15, _⟩ => ⟨S4x16x2048x1, .f32⟩
  | .hbm, ⟨16, _⟩ => ⟨S4x16x2048x2048, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.LibRealEntries.lean ====
/-
  Entries that are real numbers, and the array operations that keep them so (at the ideal instance, where a float is
  an extended real). A sum, a product, a maximum and a finite sum of real numbers are real; hence entrywise sums,
  products and maxima of arrays with real entries, their broadcasts, a gather from such an array (each result entry
  is an entry of the operand), an accumulating scatter of such updates into such an operand (each entry gains
  finitely many real updates), and a contraction of two such arrays (finite sums of real products from zero) all
  have real entries. The reciprocal square root of an extended real that is at least one is real (it is 0 at +∞), so a
  reciprocal square root of anything clamped below at one is real, whatever was clamped.
-/
import Idealize.ShloMosaic.PureOps.Ideal.Laws

noncomputable section

namespace Cert.LibRealEntries

open Idealize.ShloMosaic Idealize.ShloMosaic.TcCoe

/-- An extended real that is a real number. -/
def IsReal (x : EReal) : Prop := ∃ y : ℝ, x = (y : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The reciprocal square root of an extended real that is at least one is a real number. -/
theorem isReal_rsqrt_of_one_le {x : EReal} (h : 1 ≤ x) : IsReal (Ideal.rsqrt x) := by
  induction x using EReal.rec with
  | bot =>
    have hlt : (⊥ : EReal) < 1 := by exact_mod_cast EReal.bot_lt_coe 1
    exact absurd h (not_le.mpr hlt)
  | top => exact ⟨0, rfl⟩
  | coe r =>
    have hr : (1 : ℝ) ≤ r := by exact_mod_cast h
    show IsReal (if r < 0 then ⊥ else if r = 0 then ⊤ else (((Real.sqrt r)⁻¹ : ℝ) : EReal))
    rw [if_neg (by linarith), if_neg (by linarith)]
    exact ⟨_, rfl⟩

theorem isReal_zero_word : IsReal (Ideal.ofBits .f32 0x00000000#32) := by
  rw [Ideal.ofBits_zero_f32]; exact IsReal.zero

/-! ## The operations keep entries real (any shapes) -/

section Generic
variable {s t si u sl sr so : Shape} {w : Nat}

theorem real_maximumf (a b : FVec Ideal s .f32) (ha : ∀ i, IsReal (a i)) (hb : ∀ i, IsReal (b i)) (i : s.Idx) :
    IsReal (maximumf a b i) := (ha i).max (hb i)
theorem real_addf (a b : FVec Ideal s .f32) (ha : ∀ i, IsReal (a i)) (hb : ∀ i, IsReal (b i)) (i : s.Idx) :
    IsReal (addf a b i) := (ha i).add (hb i)
theorem real_mulf (a b : FVec Ideal s .f32) (ha : ∀ i, IsReal (a i)) (hb : ∀ i, IsReal (b i)) (i : s.Idx) :
    IsReal (mulf a b i) := (ha i).mul (hb i)
theorem real_bcast (dims : Fin s.rank → Fin t.rank) (h : s.BroadcastsInDim t dims) (x : FVec Ideal s .f32)
    (hx : ∀ i, IsReal (x i)) (j : t.Idx) : IsReal (broadcastInDim t dims h x j) := hx _
theorem real_gather (d : GatherDims s si t) (x : FVec Ideal s .f32) (idx : IVec si w) (hx : ∀ i, IsReal (x i)) (j : t.Idx) :
    IsReal (Host.gather d x idx j) := hx _
theorem real_scatterAdd (d : ScatterDims s si u) (x : FVec Ideal s .f32) (idx : IVec si w) (upd : FVec Ideal u .f32)
    (hx : ∀ i, IsReal (x i)) (hu : ∀ j, IsReal (upd j)) (i : s.Idx) : IsReal (Host.scatterAdd d x idx upd i) :=
  (hx i).add (IsReal.sum _ _ fun j _ => hu j)
theorem real_dot (d : DotDims sl sr so) (prec : Option ContractPrecision) (l : FVec Ideal sl .f32) (r : FVec Ideal sr .f32)
    (hl : ∀ i, IsReal (l i)) (hr : ∀ i, IsReal (r i)) (j : so.Idx) : IsReal (Host.dotGeneral d prec l r j) :=
  IsReal.zero.add (IsReal.sum _ _ fun k _ => (hl _).mul (hr _))
/-- A reciprocal square root of a value clamped below at one. -/
theorem real_rsqrt_clamp (one y : FVec Ideal s .f32) (h1 : ∀ i, one i = 1) (i : s.Idx) :
    IsReal (Host.rsqrt (maximumf one y) i) := by
  show IsReal (Ideal.rsqrt (Max.max (one i) (y i)))
  rw [h1 i]; exact isReal_rsqrt_of_one_le (le_max_left _ _)

end Generic

end Cert.LibRealEntries

end
-- ==== Proof.LibSumMulNonneg.lean ====
/-
  Multiplication by a nonnegative extended real other than +∞ goes through finite sums.

  On the extended reals multiplication does not distribute over addition in general (the sum +∞ + -∞ is -∞, and a
  factor +∞ or a negative factor can turn the two sides into different infinities).  For a factor `c` with
  `0 ≤ c` and `c ≠ ⊤` it does: `(y + z) * c = y * c + z * c` for all extended reals `y`, `z`.  This file states the
  consequence for a sum over any finite index set, on either side:

    `sum_mul_of_nonneg_of_ne_top` :  Σ_{i ∈ s} f i * c = (Σ_{i ∈ s} f i) * c,
    `mul_sum_of_nonneg_of_ne_top` :  Σ_{i ∈ s} c * f i = c * Σ_{i ∈ s} f i,

  their forms over a whole finite type, and the form with a second factor inside:
    `sum_mul_mul_of_nonneg_of_ne_top` : Σ_i a i * (w i * c) = (Σ_i a i * w i) * c.
  Nothing is assumed of the summands: they may be infinite and of either sign.
-/
import Mathlib.Data.EReal.Inv
import Mathlib.Algebra.BigOperators.Group.Finset.Basic

open scoped BigOperators

namespace Cert.LibSumMulNonneg

variable {ι : Type*}

/-- A nonnegative factor other than +∞ comes out of a finite sum on the right. -/
theorem sum_mul_of_nonneg_of_ne_top {c : EReal} (hc : 0 ≤ c) (hc' : c ≠ ⊤) (s : Finset ι) (f : ι → EReal) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top hc hc']

/-- A nonnegative factor other than +∞ comes out of a finite sum on the left. -/
theorem mul_sum_of_nonneg_of_ne_top {c : EReal} (hc : 0 ≤ c) (hc' : c ≠ ⊤) (s : Finset ι) (f : ι → EReal) :
    ∑ i ∈ s, c * f i = c * ∑ i ∈ s, f i := by
  classical
  induction s using Finset.induction_on with
  | empty => simp
  | insert a s ha ih =>
    rw [Finset.sum_insert ha, Finset.sum_insert ha, ih, EReal.left_distrib_of_nonneg_of_ne_top hc hc']

/-- The sum over a whole finite type, factor on the right. -/
theorem univ_sum_mul_of_nonneg_of_ne_top [Fintype ι] {c : EReal} (hc : 0 ≤ c) (hc' : c ≠ ⊤) (f : ι → EReal) :
    ∑ i, f i * c = (∑ i, f i) * c :=
  sum_mul_of_nonneg_of_ne_top hc hc' Finset.univ f

/-- The sum over a whole finite type, factor on the left. -/
theorem univ_mul_sum_of_nonneg_of_ne_top [Fintype ι] {c : EReal} (hc : 0 ≤ c) (hc' : c ≠ ⊤) (f : ι → EReal) :
    ∑ i, c * f i = c * ∑ i, f i :=
  mul_sum_of_nonneg_of_ne_top hc hc' Finset.univ f

/-- With a second factor inside: Σ_i a i * (w i * c) = (Σ_i a i * w i) * c. -/
theorem sum_mul_mul_of_nonneg_of_ne_top [Fintype ι] {c : EReal} (hc : 0 ≤ c) (hc' : c ≠ ⊤) (a w : ι → EReal) :
    ∑ i, a i * (w i * c) = (∑ i, a i * w i) * c := by
  rw [← univ_sum_mul_of_nonneg_of_ne_top hc hc']
  exact Finset.sum_congr rfl fun i _ => (mul_assoc (a i) (w i) c).symm

end Cert.LibSumMulNonneg
-- ==== Proof.LibSoftmaxRow.lean ====
/-
  Softmax weights over a finite row of extended reals, and the two places the normalising sum can divide.

  For a row of scores `s j` put `M = sup_j s j`, the weights `w j = exp (s j - M)` (the exact exponential: 0 at −∞, +∞ at
  +∞) and their sum `L = Σ_j w j`.  Against a column `v j` of arbitrary extended reals:

    `attnK s v = (Σ_j w j · v j) / L`        (normalise after the weighted sum),
    `attnR s v = Σ_j (w j / L) · v j`        (normalise the weights first),

  with the quotient of the exact instance (`x · y⁻¹` off zero).  When the row is nonempty and every score is a real number
  the maximum is one of the scores, so that weight is `exp 0 = 1` and `1 ≤ L` (`one_le_den`); then `L ≠ 0`, both quotients
  are products with `L⁻¹`, and `0 ≤ L⁻¹ < ⊤` goes through a finite sum of arbitrary extended reals: the two forms agree
  (`attnK_eq_attnR`), whatever the column holds.  Generic in the index type.
-/
import Idealize.ShloMosaic.PureOps.Ideal.Laws
import proofs.«166997_j2250562863803_2_alg».proof.Proof.LibRealEntries
import proofs.«166997_j2250562863803_2_alg».proof.Proof.LibSumMulNonneg
import Mathlib.Data.EReal.Inv

noncomputable section

open scoped BigOperators

namespace Cert.Attn

open Idealize.ShloMosaic Cert.LibRealEntries Cert.LibSumMulNonneg

/-! ## One row -/

section Row
variable {ι : Type} [Fintype ι]

/-- The largest score of the row (the least extended real for an empty row). -/
def rowMax (s : ι → EReal) : EReal := Finset.univ.sup s
/-- The weight of key `j`. -/
def wt (s : ι → EReal) (j : ι) : EReal := Ideal.exp (s j - rowMax s)
/-- The normalising sum. -/
def den (s : ι → EReal) : EReal := ∑ j, wt s j
/-- Normalise after the weighted sum. -/
def attnK (s v : ι → EReal) : EReal := Ideal.div (∑ j, wt s j * v j) (den s)
/-- Normalise the weights first. -/
def attnR (s v : ι → EReal) : EReal := ∑ j, Ideal.div (wt s j) (den s) * v j

/-- The exponential is nowhere negative. -/
theorem exp_nonneg (x : EReal) : 0 ≤ Ideal.exp x := by
  induction x using EReal.rec with
  | bot => exact le_refl _
  | top => exact le_top
  | coe r => exact EReal.coe_nonneg.mpr (Real.exp_pos r).le

/-- A quotient by a nonzero divisor is the product with its inverse. -/
theorem div_eq_mul_inv (x d : EReal) (hd : d ≠ 0) : Ideal.div x d = x * d⁻¹ := by
  unfold Ideal.div; rw [if_neg hd]

/-- With real scores, one weight is one, so the normalising sum is at least one. -/
theorem one_le_den [Nonempty ι] (s : ι → EReal) (hs : ∀ j, IsReal (s j)) : 1 ≤ den s := by
  obtain ⟨j0, -, hj0⟩ := Finset.exists_mem_eq_sup (Finset.univ : Finset ι) Finset.univ_nonempty s
  have h1 : wt s j0 = 1 := by
    obtain ⟨a, ha⟩ := hs j0
    unfold wt rowMax
    rw [hj0, ha, ← EReal.coe_sub, sub_self]
    show ((Real.exp 0 : ℝ) : EReal) = 1
    rw [Real.exp_zero]; rfl
  rw [← h1]
  exact Finset.single_le_sum (f := wt s) (fun j _ => exp_nonneg _) (Finset.mem_univ j0)

/-- The two normalisations agree on a row of real scores. -/
theorem attnK_eq_attnR [Nonempty ι] (s v : ι → EReal) (hs : ∀ j, IsReal (s j)) : attnK s v = attnR s v := by
  have h1 : 1 ≤ den s := one_le_den s hs
  have h0 : (0 : EReal) < 1 := by exact_mod_cast (zero_lt_one : (0 : ℝ) < 1)
  have hpos : 0 < den s := lt_of_lt_of_le h0 h1
  have hd : den s ≠ 0 := hpos.ne'
  have hc : 0 ≤ (den s)⁻¹ := EReal.inv_nonneg_of_nonneg hpos.le
  have hc' : (den s)⁻¹ ≠ ⊤ := (EReal.inv_lt_top _).ne
  unfold attnK attnR
  rw [div_eq_mul_inv _ _ hd, ← univ_sum_mul_of_nonneg_of_ne_top hc hc']
  refine Finset.sum_congr rfl fun j _ => ?_
  rw [div_eq_mul_inv _ _ hd, mul_right_comm]

end Row

end Cert.Attn

end
-- ==== Proof.AttnMath.lean ====
/-
  Softmax attention over `[4, 16, 2048, 64]` arrays on the extended reals: the scale, and the result array in two forms.

  The scores: a dot product whose left factors are each scaled by `c` equals the dot product scaled by `c`, for
  `0 ≤ c < ⊤`; here `c = 1/8`, written once as the binary word of 0.125 and once as `1 / sqrt 64` (`sqrt 64 = 8`).

  The result array at `(b, h, i, d)` is the attended value of the scores of query row `(b, h, i)` against the keys of
  `(b, h)`, weighing column `d` of the values of `(b, h)`: with the scale on each query feature and the division after the
  weighted sum (`GK`), or with the scale on the score and the weights normalised first (`G`).  On real queries and keys
  every score is real, so the two forms of a row agree (the row facts are in the module this one imports) and `GK = G`.
-/
import Idealize.ShloMosaic.PureOps.Ideal.Laws
import Idealize.ShloMosaic.Lib.ValueIdx
import proofs.«166997_j2250562863803_2_alg».proof.Proof.LibSoftmaxRow
import proofs.«166997_j2250562863803_2_alg».proof.Proof.LibRealEntries
import proofs.«166997_j2250562863803_2_alg».proof.Proof.LibSumMulNonneg
import Mathlib.Data.EReal.Inv

noncomputable section

open scoped BigOperators

namespace Cert.Attn

open Idealize.ShloMosaic Idealize.ShloMosaic.ValueIdx Cert.LibRealEntries Cert.LibSumMulNonneg

/-! ## The scale -/

/-- The scale as the word of 0.125. -/
def scaleK : EReal := Ideal.ofBits .f32 0x3E000000#32
/-- The scale as one over the square root of sixty-four. -/
def scaleR : EReal := Ideal.div (Ideal.ofBits .f32 0x3F800000#32) (Ideal.sqrt (Ideal.ofBits .f32 0x42800000#32))

theorem ofBits_eighth : Ideal.ofBits .f32 0x3E000000#32 = ((1 / 8 : ℝ) : EReal) := by
  simp [Ideal.ofBits, Ideal.ieee]
  norm_cast
  norm_num
theorem ofBits_one : Ideal.ofBits .f32 0x3F800000#32 = ((1 : ℝ) : EReal) := by
  simp [Ideal.ofBits, Ideal.ieee]
  norm_cast
  norm_num
theorem ofBits_sixtyfour : Ideal.ofBits .f32 0x42800000#32 = ((64 : ℝ) : EReal) := by
  simp [Ideal.ofBits, Ideal.ieee]
  norm_cast
  norm_num

theorem scaleK_eq : scaleK = ((1 / 8 : ℝ) : EReal) := ofBits_eighth

theorem scaleR_eq : scaleR = ((1 / 8 : ℝ) : EReal) := by
  unfold scaleR
  rw [ofBits_one, ofBits_sixtyfour, Ideal.sqrt_coe, if_neg (by norm_num)]
  have h8 : Real.sqrt 64 = 8 := by
    rw [show (64 : ℝ) = 8 ^ 2 by norm_num]; exact Real.sqrt_sq (by norm_num)
  rw [h8, Ideal.div_coe (by norm_num : (8 : ℝ) ≠ 0), ← EReal.coe_mul, one_mul]

theorem scaleR_nonneg : 0 ≤ scaleR := by rw [scaleR_eq]; exact EReal.coe_nonneg.mpr (by norm_num)
theorem scaleR_ne_top : scaleR ≠ ⊤ := by rw [scaleR_eq]; exact EReal.coe_ne_top _

/-- A dot product with each left factor scaled is the scaled dot product. -/
theorem dot_scaled {κ : Type} [Fintype κ] (a b : κ → EReal) :
    ∑ e, (a e * scaleK) * b e = (∑ e, a e * b e) * scaleR := by
  rw [scaleK_eq, ← scaleR_eq, ← univ_sum_mul_of_nonneg_of_ne_top scaleR_nonneg scaleR_ne_top]
  exact Finset.sum_congr rfl fun e _ => mul_right_comm _ _ _

/-- A scaled dot product of real factors is real. -/
theorem isReal_dot {κ : Type} [Fintype κ] (a b : κ → EReal) (ha : ∀ e, IsReal (a e)) (hb : ∀ e, IsReal (b e)) :
    IsReal ((∑ e, a e * b e) * scaleR) :=
  (IsReal.sum _ _ fun e _ => (ha e).mul (hb e)).mul ⟨1 / 8, scaleR_eq⟩

/-! ## The whole array: four batches of sixteen heads, 2048 positions, 64 features -/

abbrev Q4 : Shape := ⟨4, ![4, 16, 2048, 64]⟩

/-- Entry `(b, h, i, d)` with the scale on each query feature and the division after the weighted sum. -/
def GKat (q k v : Q4.Idx → EReal) (b : Fin 4) (h : Fin 16) (i : Fin 2048) (d : Fin 64) : EReal :=
  attnK (fun j : Fin 2048 => ∑ e : Fin 64, (q (ix4 b h i e) * scaleK) * k (ix4 b h j e)) (fun j => v (ix4 b h j d))

/-- Entry `(b, h, i, d)` with the scale on the score and the weights normalised first. -/
def GRat (q k v : Q4.Idx → EReal) (b : Fin 4) (h : Fin 16) (i : Fin 2048) (d : Fin 64) : EReal :=
  attnR (fun j : Fin 2048 => (∑ e : Fin 64, q (ix4 b h i e) * k (ix4 b h j e)) * scaleR) (fun j => v (ix4 b h j d))

/-- On real queries and keys the two entries agree. -/
theorem GKat_eq_GRat (q k v : Q4.Idx → EReal) (hq : ∀ x, IsReal (q x)) (hk : ∀ x, IsReal (k x))
    (b : Fin 4) (h : Fin 16) (i : Fin 2048) (d : Fin 64) : GKat q k v b h i d = GRat q k v b h i d := by
  unfold GKat GRat
  have hs : (fun j : Fin 2048 => ∑ e : Fin 64, (q (ix4 b h i e) * scaleK) * k (ix4 b h j e))
      = fun j : Fin 2048 => (∑ e : Fin 64, q (ix4 b h i e) * k (ix4 b h j e)) * scaleR :=
    funext fun j => dot_scaled _ _
  rw [hs]
  haveI : Nonempty (Fin 2048) := ⟨0⟩
  exact attnK_eq_attnR _ _ fun j => isReal_dot _ _ (fun e => hq _) (fun e => hk _)

/-- The result array, in the second form: what both programs end holding. -/
def G (q k v : Q4.Idx → EReal) : Q4.Idx → EReal := fun x => GRat q k v (x 0) (x 1) (x 2) (x 3)

theorem G_apply (q k v : Q4.Idx → EReal) (b : Fin 4) (h : Fin 16) (i : Fin 2048) (d : Fin 64) :
    G q k v (ix4 b h i d) = GRat q k v b h i d := rfl

/-- The result array in the first form. -/
def GK (q k v : Q4.Idx → EReal) : Q4.Idx → EReal := fun x => GKat q k v (x 0) (x 1) (x 2) (x 3)

theorem GK_apply (q k v : Q4.Idx → EReal) (b : Fin 4) (h : Fin 16) (i : Fin 2048) (d : Fin 64) :
    GK q k v (ix4 b h i d) = GKat q k v b h i d := rfl

/-- On real queries and keys the two arrays are one. -/
theorem GK_eq_G (q k v : Q4.Idx → EReal) (hq : ∀ x, IsReal (q x)) (hk : ∀ x, IsReal (k x)) : GK q k v = G q k v :=
  funext fun x => GKat_eq_GRat q k v hq hk (x 0) (x 1) (x 2) (x 3)

end Cert.Attn

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«166997_j2250562863803_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibRowMax.lean ====
/-
  The maximum of a two-axis array along its second axis, read at a row: over the extended reals, started from the word
  of −∞ (which denotes the least extended real), the maximum of an `[a, b]` array along its columns is at row `i` the
  supremum over the columns `k` of the entries `(i, k)`.  It holds for any extents.
-/
import Idealize.ShloMosaic.Lib.ValueIdx
import Idealize.ShloMosaic.PureOps.Ideal.Laws

noncomputable section

open scoped BigOperators

namespace Cert.LibRowMax

open Idealize.ShloMosaic Idealize.ShloMosaic.ValueIdx

/-- The f32 word of −∞ denotes the least extended real. -/
theorem ofBits_neg_inf_f32 : Ideal.ofBits .f32 0xFF800000#32 = (⊥ : EReal) := by
  simp [Ideal.ofBits, Ideal.ieee]

/-- A fold of `max` from the least element is the supremum. -/
theorem fold_max_bot_eq_sup {ι : Type*} (s : Finset ι) (f : ι → EReal) : s.fold max ⊥ f = s.sup f := rfl

/-- Over the extended reals, the maximum of an `[a, b]` array along its second axis, started from the word of −∞, is
    at row `i` the supremum over the columns `k` of the entries `(i, k)`. -/
theorem multiReduction_max_rows_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = Finset.univ.sup fun k : Fin b => src (ix2 i k) := by
  refine (Ideal.multiReduction_maximumf_single src 0xFF800000#32 h hφ hacc (ix1 i)).trans ?_
  have hf : (src ∘ h.lift (ix1 i)) = fun k : Fin b => src (ix2 i k) :=
    funext fun k => congrArg src (funext fun ax => Fin.ext (by
      match ax with
      | ⟨0, _⟩ => rfl
      | ⟨1, _⟩ => rfl))
  rw [hf]
  show (Finset.univ : Finset (Fin b)).fold max (Ideal.ofBits .f32 0xFF800000#32) _ = _
  rw [ofBits_neg_inf_f32]
  exact fold_max_bot_eq_sup _ _

end Cert.LibRowMax

end
-- ==== Proof.KernelPayload.lean ====
/-
  One grid point of the kernel, read at an entry.

  At a grid point the body holds a block of queries `x0` ([1, 1024, 64]) and the whole key and value arrays of one
  head, `x1` and `x2` ([1, 2048, 64]).  It scales every query feature by 1/8, multiplies the scaled queries by the
  transposed keys (a score block [1024, 2048]), takes each row's maximum, exponentiates the differences, sums each row,
  multiplies the weights by the values and divides each row of the product by its sum.  Roundings to a shorter format
  are the identity on extended reals, and both matrix products start from zero.  So entry `(r, d)` of the stored block is

      (Σ_j w j · x2 (0, j, d)) / (Σ_j w j),   w j = exp (s j − max_j s j),   s j = Σ_e (x0 (0, r, e) · 1/8) · x1 (0, j, e),

  which is `Cert.Attn.attnK` of that row's scores and that column of values.
-/
import proofs.«166997_j2250562863803_2_alg».proof.Proof.Gen.KernelIdeal.Skeleton
import proofs.«166997_j2250562863803_2_alg».proof.Proof.AttnMath
import proofs.«166997_j2250562863803_2_alg».proof.Proof.LibPlainDotFormats
import proofs.«166997_j2250562863803_2_alg».proof.Proof.LibKeepdims
import proofs.«166997_j2250562863803_2_alg».proof.Proof.LibRowMax
import Idealize.ShloMosaic.Lib.Pipeline.Value
import Idealize.ShloMosaic.Lib.ValueIdx
import Idealize.ShloMosaic.Lib.ValueLayout

noncomputable section

open scoped BigOperators

namespace Cert.KernelIdeal.Payload

open Idealize.ShloMosaic Idealize.ShloMosaic.ValueIdx Cert.KernelIdeal Cert.KernelIdeal.Gen Cert.Attn

/-! ## The stages, as functions of the loaded blocks -/

/-- The score block: scaled queries times transposed keys, from zero. -/
def scores (x0 : Vec Ideal S1x1024x64 .f32) (x1 : Vec Ideal S1x2048x64 .f32) : FVec Ideal S1024x2048 .f32 :=
  matmul dot_S1024x64_S64x2048_S1024x2048_1_0_0_1_n_n none
    (truncf .bf16 (mulf (shapeCast S1024x64 x0 shapeCasts_S1x1024x64_S1024x64)
      (broadcast S1024x64 (Scalar.ofBits .f32 0x3E000000#32))) bitsLt_bf16_f32)
    (transpose S64x2048 [1, 0] (truncf .bf16 (shapeCast S2048x64 x1 shapeCasts_S1x2048x64_S2048x64) bitsLt_bf16_f32)
      transposes_S2048x64_p1_0_S64x2048)
    (constant S1024x2048 .f32 0x00000000#32)

/-- Each row's maximum, spread back over the row. -/
def rowMaxB (s : FVec Ideal S1024x2048 .f32) : FVec Ideal S1024x2048 .f32 :=
  broadcastTo S1024x2048
    (shapeCast S1024x1 (multiReduction .maximumf [1] S1024 s 0xFF800000#32 reduces_S1024x2048_S1024 (.inl rfl) rfl)
      shapeCasts_S1024_S1024x1) broadcasts_S1024x1_S1024x2048

/-- The weights. -/
def weights (s : FVec Ideal S1024x2048 .f32) : FVec Ideal S1024x2048 .f32 := exp (subf s (rowMaxB s))

/-- Each row's sum of weights, spread over the 64 output features. -/
def rowSumB (s : FVec Ideal S1024x2048 .f32) : FVec Ideal S1024x64 .f32 :=
  broadcastTo S1024x64
    (shapeCast S1024x1 (multiReduction .add [1] S1024 (weights s) 0x00000000#32 reduces_S1024x2048_S1024 (.inl rfl) rfl)
      shapeCasts_S1024_S1024x1) broadcasts_S1024x1_S1024x64

/-- The weights times the values, from zero. -/
def weighted (s : FVec Ideal S1024x2048 .f32) (vv : FVec Ideal S2048x64 .bf16) : FVec Ideal S1024x64 .f32 :=
  matmul dot_S1024x2048_S2048x64_S1024x64_1_0_0_1_n_n none (truncf .bf16 (weights s) bitsLt_bf16_f32) vv
    (constant S1024x64 .f32 0x00000000#32)

/-- The stored block. -/
def outB (s : FVec Ideal S1024x2048 .f32) (vv : FVec Ideal S2048x64 .bf16) : FVec Ideal S1x1024x64 .f32 :=
  shapeCast S1x1024x64 (divf (weighted s vv) (rowSumB s)) shapeCasts_S1024x64_S1x1024x64

/-- The values as the second product takes them. -/
def valsB (x2 : Vec Ideal S1x2048x64 .f32) : FVec Ideal S2048x64 .bf16 :=
  truncf .bf16 (shapeCast S2048x64 x2 shapeCasts_S1x2048x64_S2048x64) bitsLt_bf16_f32

/-- The body's stored value is the composition of the stages. -/
theorem pay_eq (x0 : Vec Ideal S1x1024x64 .f32) (x1 x2 : Vec Ideal S1x2048x64 .f32) :
    k0_pay1 (F := Ideal) x0 x1 x2 = outB (scores x0 x1) (valsB x2) := rfl

/-! ## Each stage at an entry -/

theorem plain1 : Cert.LibPlainDot.Plain dot_S1024x64_S64x2048_S1024x2048_1_0_0_1_n_n := ⟨rfl, rfl, rfl, rfl, rfl, rfl⟩
theorem plain2 : Cert.LibPlainDot.Plain dot_S1024x2048_S2048x64_S1024x64_1_0_0_1_n_n := ⟨rfl, rfl, rfl, rfl, rfl, rfl⟩

/-- A score: the dot product of the scaled query row with the key row. -/
theorem scores_apply (x0 : Vec Ideal S1x1024x64 .f32) (x1 : Vec Ideal S1x2048x64 .f32) (r : Fin 1024) (j : Fin 2048) :
    scores x0 x1 (ix2 r j) = ∑ e : Fin 64, (x0 (ix3 (0 : Fin 1) r e) * scaleK) * x1 (ix3 (0 : Fin 1) j e) := by
  unfold scores
  refine (plain1.matmul_zero_apply_formats none _ _ r j).trans ?_
  refine Finset.sum_congr rfl fun e _ => ?_
  have hq : (truncf .bf16 (mulf (shapeCast S1024x64 x0 shapeCasts_S1x1024x64_S1024x64)
      (broadcast S1024x64 (Scalar.ofBits (F := Ideal) .f32 0x3E000000#32))) bitsLt_bf16_f32 : FVec Ideal S1024x64 .bf16) (ix2 r e)
        = x0 (ix3 (0 : Fin 1) r e) * scaleK :=
    congrArg (· * scaleK) (shapeCast_1ab_ab_apply x0 shapeCasts_S1x1024x64_S1024x64 r e)
  have hk : (transpose S64x2048 [1, 0] (truncf .bf16 (shapeCast S2048x64 x1 shapeCasts_S1x2048x64_S2048x64) bitsLt_bf16_f32 : FVec Ideal S2048x64 .bf16)
      transposes_S2048x64_p1_0_S64x2048) (ix2 e j) = x1 (ix3 (0 : Fin 1) j e) :=
    (transpose_ix2_apply _ transposes_S2048x64_p1_0_S64x2048 e j).trans
      (shapeCast_1ab_ab_apply x1 shapeCasts_S1x2048x64_S2048x64 j e)
  rw [hq, hk]

/-- The spread maximum at `(r, j)` is the largest score of row `r`. -/
theorem rowMaxB_apply (s : FVec Ideal S1024x2048 .f32) (r : Fin 1024) (j : Fin 2048) :
    rowMaxB s (ix2 r j) = rowMax (fun j' : Fin 2048 => s (ix2 r j')) := by
  unfold rowMaxB
  refine (Cert.LibKeepdims.broadcastTo_a1_ab_apply _ broadcasts_S1024x1_S1024x2048 r j).trans ?_
  refine (Cert.LibKeepdims.shapeCast_a_a1_apply _ shapeCasts_S1024_S1024x1 r (0 : Fin 1)).trans ?_
  exact Cert.LibRowMax.multiReduction_max_rows_apply s reduces_S1024x2048_S1024 _ _ r

/-- A weight. -/
theorem weights_apply (s : FVec Ideal S1024x2048 .f32) (r : Fin 1024) (j : Fin 2048) :
    weights s (ix2 r j) = wt (fun j' : Fin 2048 => s (ix2 r j')) j := by
  show Ideal.exp (s (ix2 r j) - rowMaxB s (ix2 r j)) = Ideal.exp (s (ix2 r j) - rowMax (fun j' : Fin 2048 => s (ix2 r j')))
  rw [rowMaxB_apply]

/-- The spread row sum at `(r, d)` is the normalising sum of row `r`. -/
theorem rowSumB_apply (s : FVec Ideal S1024x2048 .f32) (r : Fin 1024) (d : Fin 64) :
    rowSumB s (ix2 r d) = den (fun j' : Fin 2048 => s (ix2 r j')) := by
  unfold rowSumB
  refine (Cert.LibKeepdims.broadcastTo_a1_ab_apply _ broadcasts_S1024x1_S1024x64 r d).trans ?_
  refine (Cert.LibKeepdims.shapeCast_a_a1_apply _ shapeCasts_S1024_S1024x1 r (0 : Fin 1)).trans ?_
  refine (Cert.LibKeepdims.multiReduction_add_rows_apply (weights s) reduces_S1024x2048_S1024 _ _ r).trans ?_
  exact Finset.sum_congr rfl fun j _ => weights_apply s r j

/-- The weighted sum of the values. -/
theorem weighted_apply (s : FVec Ideal S1024x2048 .f32) (vv : FVec Ideal S2048x64 .bf16) (r : Fin 1024) (d : Fin 64) :
    weighted s vv (ix2 r d) = ∑ j : Fin 2048, wt (fun j' : Fin 2048 => s (ix2 r j')) j * vv (ix2 j d) := by
  unfold weighted
  refine (plain2.matmul_zero_apply_formats none _ _ r d).trans ?_
  exact Finset.sum_congr rfl fun j _ => congrArg (· * vv (ix2 j d)) (weights_apply s r j)

/-- The stored block at `(u, r, d)`. -/
theorem outB_apply (s : FVec Ideal S1024x2048 .f32) (vv : FVec Ideal S2048x64 .bf16) (u : Fin 1) (r : Fin 1024) (d : Fin 64) :
    outB s vv (ix3 u r d) = attnK (fun j : Fin 2048 => s (ix2 r j)) (fun j : Fin 2048 => vv (ix2 j d)) := by
  unfold outB
  refine (shapeCast_ab_1ab_apply _ shapeCasts_S1024x64_S1x1024x64 u r d).trans ?_
  show Ideal.div (weighted s vv (ix2 r d)) (rowSumB s (ix2 r d)) = _
  rw [weighted_apply, rowSumB_apply]
  rfl

/-- The values at `(j, d)`. -/
theorem valsB_apply (x2 : Vec Ideal S1x2048x64 .f32) (j : Fin 2048) (d : Fin 64) :
    valsB x2 (ix2 j d) = x2 (ix3 (0 : Fin 1) j d) :=
  shapeCast_1ab_ab_apply x2 shapeCasts_S1x2048x64_S2048x64 j d

/-- THE BODY'S STORED VALUE at `(u, r, d)`: the attended value of query row `r` against value column `d`. -/
theorem pay_apply (x0 : Vec Ideal S1x1024x64 .f32) (x1 x2 : Vec Ideal S1x2048x64 .f32) (u : Fin 1) (r : Fin 1024) (d : Fin 64) :
    k0_pay1 (F := Ideal) x0 x1 x2 (ix3 u r d)
      = attnK (fun j : Fin 2048 => ∑ e : Fin 64, (x0 (ix3 (0 : Fin 1) r e) * scaleK) * x1 (ix3 (0 : Fin 1) j e))
          (fun j : Fin 2048 => x2 (ix3 (0 : Fin 1) j d)) := by
  rw [pay_eq, outB_apply]
  have hs : (fun j : Fin 2048 => scores x0 x1 (ix2 r j))
      = fun j : Fin 2048 => ∑ e : Fin 64, (x0 (ix3 (0 : Fin 1) r e) * scaleK) * x1 (ix3 (0 : Fin 1) j e) :=
    funext fun j => scores_apply x0 x1 r j
  have hv : (fun j : Fin 2048 => valsB x2 (ix2 j d)) = fun j : Fin 2048 => x2 (ix3 (0 : Fin 1) j d) :=
    funext fun j => valsB_apply x2 j d
  rw [hs, hv]

end Cert.KernelIdeal.Payload

end
-- ==== Proof.KernelArray.lean ====
/-
  The kernel's output array after the region, as one function of the three arrays the region reads.

  The grid has 64 × 2 points.  Point `(g, p)` reads rows `p·1024 … p·1024 + 1023` of head `g` of the query array and all
  of head `g` of the key and value arrays, and writes rows `p·1024 …` of head `g` of the output.  The blocks written
  tile the output array, so it ends holding, at `(g, i, d)`, the attended value of query row `i` of head `g` against
  column `d` of that head's values.
-/
import proofs.«166997_j2250562863803_2_alg».proof.Proof.Gen.KernelIdeal.Frame
import proofs.«166997_j2250562863803_2_alg».proof.Proof.KernelPayload
import Idealize.ShloMosaic.Lib.Pipeline.Value

set_option maxRecDepth 16384

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- Entry `(g, i, d)` of the output over the three-axis arrays. -/
def G3at (a0 a1 a2 : S64x2048x64.Idx → EReal) (g : Fin 64) (i : Fin 2048) (d : Fin 64) : EReal :=
  attnK (fun j : Fin 2048 => ∑ e : Fin 64, (a0 (ix3 g i e) * scaleK) * a1 (ix3 g j e)) (fun j : Fin 2048 => a2 (ix3 g j d))

/-- The output array over the three-axis arrays. -/
def G3 (a0 a1 a2 : S64x2048x64.Idx → EReal) : S64x2048x64.Idx → EReal := fun x => G3at a0 a1 a2 (x 0) (x 1) (x 2)

/-- The printed index maps, decided over the grid: every window is on the output's head; the query block moves with
    the output block along the rows; keys and values are whole heads; no window moves along the features. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 63 ∧ win0_3.index t (1 : Fin 3) ≤ 1 :=
  (by decide +kernel : ∀ t : Fin grid0.N, _)

/-- Every block of the output is some point's. -/
theorem idx_onto : ∀ (q0 : Fin 64) (q1 : Fin 2), ∃ t : Fin cfg0.N, win0_3.index t = ![q0.val, q1.val, 0] :=
  (by decide +kernel : ∀ (q0 : Fin 64) (q1 : Fin 2), ∃ t : Fin grid0.N, win0_3.index t = ![q0.val, q1.val, 0])

/-! ## The input blocks at a point, read where they sit in their arrays -/

/-- The query block at a point on head `g`, row block `p`. -/
theorem qblk_read (c : Dev nD) (t : Fin cfg0.N) (g : Fin 64) (p : Fin 2) (hg : win0_3.index t (0 : Fin 3) = g.val)
    (hp : win0_3.index t (1 : Fin 3) = p.val) (r : Fin 1024) (e : Fin 64) (hb : p.val * 1024 + r.val < 2048) :
    iblk m c 0 t (ix3 (0 : Fin 1) r e) = V m c main_v0 (ix3 g (⟨p.val * 1024 + r.val, hb⟩ : Fin 2048) e) := by
  obtain ⟨e0, e1, e2, -⟩ := idx_facts t
  show V m c main_v0 (((cfg0.win 0).blk t).view.emb (ix3 (0 : Fin 1) r e)) = _
  refine congrArg (V m c main_v0) (funext fun a => Fin.ext ?_)
  match a with
  | ⟨0, _⟩ => show win0_0.index t (0 : Fin 3) * 1 + 1 * 0 = g.val; omega
  | ⟨1, _⟩ => show win0_0.index t (1 : Fin 3) * 1024 + 1 * r.val = p.val * 1024 + r.val; omega
  | ⟨2, _⟩ => show win0_0.index t (2 : Fin 3) * 64 + 1 * e.val = e.val; omega

/-- The key block at a point on head `g`: the whole head. -/
theorem kblk_read (c : Dev nD) (t : Fin cfg0.N) (g : Fin 64) (hg : win0_3.index t (0 : Fin 3) = g.val)
    (j : Fin 2048) (e : Fin 64) :
    iblk m c 1 t (ix3 (0 : Fin 1) j e) = V m c main_v1 (ix3 g j e) := by
  obtain ⟨-, -, -, e0, e1, e2, -⟩ := idx_facts t
  show V m c main_v1 (((cfg0.win 1).blk t).view.emb (ix3 (0 : Fin 1) j e)) = _
  refine congrArg (V m c main_v1) (funext fun a => Fin.ext ?_)
  match a with
  | ⟨0, _⟩ => show win0_1.index t (0 : Fin 3) * 1 + 1 * 0 = g.val; omega
  | ⟨1, _⟩ => show win0_1.index t (1 : Fin 3) * 2048 + 1 * j.val = j.val; omega
  | ⟨2, _⟩ => show win0_1.index t (2 : Fin 3) * 64 + 1 * e.val = e.val; omega

/-- The value block at a point on head `g`: the whole head. -/
theorem vblk_read (c : Dev nD) (t : Fin cfg0.N) (g : Fin 64) (hg : win0_3.index t (0 : Fin 3) = g.val)
    (j : Fin 2048) (d : Fin 64) :
    iblk m c 2 t (ix3 (0 : Fin 1) j d) = V m c main_v2 (ix3 g j d) := by
  obtain ⟨-, -, -, -, -, -, e0, e1, e2, -⟩ := idx_facts t
  show V m c main_v2 (((cfg0.win 2).blk t).view.emb (ix3 (0 : Fin 1) j d)) = _
  refine congrArg (V m c main_v2) (funext fun a => Fin.ext ?_)
  match a with
  | ⟨0, _⟩ => show win0_2.index t (0 : Fin 3) * 1 + 1 * 0 = g.val; omega
  | ⟨1, _⟩ => show win0_2.index t (1 : Fin 3) * 2048 + 1 * j.val = j.val; omega
  | ⟨2, _⟩ => show win0_2.index t (2 : Fin 3) * 64 + 1 * d.val = d.val; omega

/-! ## What a point writes back -/

/-- The stored block over blocks that are reads of three arrays on head `g`, row block `p`: entry `(u, r, d)` is the
    output function at `(g, p·1024 + r, d)`. -/
theorem pay_block (x0 : Vec Ideal S1x1024x64 .f32) (x1 x2 : Vec Ideal S1x2048x64 .f32) (a0 a1 a2 : S64x2048x64.Idx → EReal)
    (g : Fin 64) (p : Fin 2)
    (h0 : ∀ (r : Fin 1024) (e : Fin 64) (hb : p.val * 1024 + r.val < 2048), x0 (ix3 (0 : Fin 1) r e) = a0 (ix3 g (⟨p.val * 1024 + r.val, hb⟩ : Fin 2048) e))
    (h1 : ∀ (j : Fin 2048) (e : Fin 64), x1 (ix3 (0 : Fin 1) j e) = a1 (ix3 g j e))
    (h2 : ∀ (j : Fin 2048) (d : Fin 64), x2 (ix3 (0 : Fin 1) j d) = a2 (ix3 g j d))
    (u : Fin 1) (r : Fin 1024) (d : Fin 64) (hb : p.val * 1024 + r.val < 2048) :
    k0_pay1 (F := Ideal) x0 x1 x2 (ix3 u r d) = G3at a0 a1 a2 g (⟨p.val * 1024 + r.val, hb⟩ : Fin 2048) d := by
  rw [Cert.KernelIdeal.Payload.pay_apply]
  unfold G3at
  have hs : (fun j : Fin 2048 => ∑ e : Fin 64, (x0 (ix3 (0 : Fin 1) r e) * scaleK) * x1 (ix3 (0 : Fin 1) j e))
      = fun j : Fin 2048 => ∑ e : Fin 64, (a0 (ix3 g (⟨p.val * 1024 + r.val, hb⟩ : Fin 2048) e) * scaleK) * a1 (ix3 g j e) :=
    funext fun j => Finset.sum_congr rfl fun e _ => by rw [h0 r e hb, h1 j e]
  have hv : (fun j : Fin 2048 => x2 (ix3 (0 : Fin 1) j d)) = fun j : Fin 2048 => a2 (ix3 g j d) := funext fun j => h2 j d
  rw [hs, hv]

/-- WHAT POINT `t` WRITES BACK is block `t` of the output function of the arrays as the region finds them. -/
theorem flushed3_eq (c : Dev nD) (t : Fin cfg0.N) :
    (dats m 0 c).flushed 3 t
      = ((cfg0.win 3).blk t).view.read (Elt Ideal) (G3 (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x1024x64) hz, View.ld_unit_zero (S := S1x2048x64) hz]
  obtain ⟨-, -, -, -, -, -, -, -, -, f2, f0, f1⟩ := idx_facts t
  funext y
  have hy0 : (y 0).val < 1 := (y 0).isLt
  have hy1 : (y 1).val < 1024 := (y 1).isLt
  have hy2 : (y 2).val < 64 := (y 2).isLt
  have hb : (⟨win0_3.index t (1 : Fin 3), by omega⟩ : Fin 2).val * 1024 + (⟨(y 1).val, hy1⟩ : Fin 1024).val < 2048 := by
    show win0_3.index t (1 : Fin 3) * 1024 + (y 1).val < 2048; omega
  have hy : y = ix3 (⟨(y 0).val, hy0⟩ : Fin 1) (⟨(y 1).val, hy1⟩ : Fin 1024) (⟨(y 2).val, hy2⟩ : Fin 64) :=
    funext fun a => Fin.ext (by match a with | ⟨0, _⟩ => rfl | ⟨1, _⟩ => rfl | ⟨2, _⟩ => rfl)
  show k0_pay1 (iblk m c 0 t) (iblk m c 1 t) (iblk m c 2 t) y
    = G3 (V m c main_v0) (V m c main_v1) (V m c main_v2) (((cfg0.win 3).blk t).view.emb y)
  refine (congrArg (k0_pay1 (iblk m c 0 t) (iblk m c 1 t) (iblk m c 2 t)) hy).trans ?_
  refine (pay_block (iblk m c 0 t) (iblk m c 1 t) (iblk m c 2 t) (V m c main_v0) (V m c main_v1) (V m c main_v2)
    (⟨win0_3.index t (0 : Fin 3), by omega⟩ : Fin 64) (⟨win0_3.index t (1 : Fin 3), by omega⟩ : Fin 2)
    (fun r e hb' => qblk_read m c t _ _ rfl rfl r e hb') (fun j e => kblk_read m c t _ rfl j e)
    (fun j d => vblk_read m c t _ rfl j d) _ _ _ hb).trans ?_
  show G3 (V m c main_v0) (V m c main_v1) (V m c main_v2) (ix3 _ _ _) = _
  refine congrArg (G3 (V m c main_v0) (V m c main_v1) (V m c main_v2)) (funext fun a => Fin.ext ?_)
  match a with
  | ⟨0, _⟩ => show win0_3.index t (0 : Fin 3) = win0_3.index t (0 : Fin 3) * 1 + 1 * (y 0).val; omega
  | ⟨1, _⟩ => show win0_3.index t (1 : Fin 3) * 1024 + (y 1).val = win0_3.index t (1 : Fin 3) * 1024 + 1 * (y 1).val; omega
  | ⟨2, _⟩ => show (y 2).val = win0_3.index t (2 : Fin 3) * 64 + 1 * (y 2).val; omega

/-! ## The blocks tile the output -/

/-- An index of the output is in point `t`'s block iff each coordinate is in the block's range on its axis. -/
theorem mem_blk3 (t : Fin cfg0.N) (i : S64x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v3).slice (win0_3.rect t)).set ↔ _
  rw [View.set_slice_whole, Rect.mem_set_unit]
  exact Iff.rfl

/-- Every index of the output is in the block of the point on its head and its half of the rows. -/
theorem cover3 (i : S64x2048x64.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- THE OUTPUT ARRAY after the region. -/
theorem final3 (c : Dev nD) :
    (dats m 0 c).arrAt 3 cfg0.N = G3 (V m c main_v0) (V m c main_v1) (V m c main_v2) :=
  (dats m 0 c).arrAt_eq_of_cover 3 (G3 (V m c main_v0) (V m c main_v1) (V m c main_v2)) (fun t _ => flushed3_eq m c t) cover3

end Cert.KernelIdeal.Arr

end
-- ==== Proof.KernelRun.lean ====
/-
  The kernel program's result as a function of its three arguments.

  The program views each `[4, 16, 2048, 64]` argument as `[64, 2048, 64]` (head `g = b·16 + h`), runs the region, and
  views the region's `[64, 2048, 64]` output as `[4, 16, 2048, 64]` again.  Both views keep row-major positions, so
  entry `(b, h, i, d)` of the result is entry `(b·16 + h, i, d)` of the region's output, and entry `(b·16 + h, i, e)` of a
  viewed argument is its entry `(b, h, i, e)`.  Hence the result is, at `(b, h, i, d)`, the attended value of query row
  `(b, h, i)` against column `d` of the values of `(b, h)`, in the form with the scale on the query features and the division
  after the weighted sum (`Cert.Attn.GK`).
-/
import proofs.«166997_j2250562863803_2_alg».proof.Proof.KernelArray
import Idealize.ShloMosaic.Lib.StableHlo.Run
import Idealize.ShloMosaic.Lib.Pipeline.Value

set_option maxRecDepth 16384

noncomputable section

open scoped BigOperators

namespace Cert.KernelIdeal.Run

open Cert.KernelIdeal Cert.KernelIdeal.Gen Idealize.ShloMosaic Idealize.ShloMosaic.TcCoe Idealize.SL.Sem
open Idealize.ShloMosaic.ValueIdx Cert.Attn Cert.KernelIdeal.Arr
open Idealize.ShloMosaic.Pipeline (Dat)

variable (m : (ℓ : Loc nD τ sig) → Buf (Elt Ideal) ℓ) (ρ : Dev nD → PrngReg)

/-! ## The two views at coordinates -/

/-- A `[4, 16, 2048, 64]` array viewed as `[64, 2048, 64]`: head `b·16 + h` is `(b, h)`. -/
theorem view43_apply {α : Type} (x : S4x16x2048x64.Idx → α) (hc : S4x16x2048x64.ShapeCasts S64x2048x64)
    (b : Fin 4) (h : Fin 16) (i : Fin 2048) (e : Fin 64) (hg : b.val * 16 + h.val < 64) :
    shapeCast S64x2048x64 x hc (ix3 (⟨b.val * 16 + h.val, hg⟩ : Fin 64) i e) = x (ix4 b h i e) :=
  shapeCast_apply x hc _ _ (by
    rw [Shape.rowMajor_val_four, Shape.rowMajor_val_three]
    rfl)

/-- A `[64, 2048, 64]` array viewed as `[4, 16, 2048, 64]`: `(b, h)` is head `b·16 + h`. -/
theorem view34_apply {α : Type} (x : S64x2048x64.Idx → α) (hc : S64x2048x64.ShapeCasts S4x16x2048x64)
    (b : Fin 4) (h : Fin 16) (i : Fin 2048) (d : Fin 64) (hg : b.val * 16 + h.val < 64) :
    shapeCast S4x16x2048x64 x hc (ix4 b h i d) = x (ix3 (⟨b.val * 16 + h.val, hg⟩ : Fin 64) i d) :=
  shapeCast_apply x hc _ _ (by
    rw [Shape.rowMajor_val_four, Shape.rowMajor_val_three]
    rfl)

/-! ## The arrays the region finds -/

theorem V_v0 (c : Dev nD) : (V m c main_v0 : S64x2048x64.Idx → EReal)
    = shapeCast S64x2048x64 (m ((c : Thread nD τ).loc main_arg0)) shapeCasts_S4x16x2048x64_S64x2048x64 := by
  show StableHlo.after hostOps0 (fun b => m (c, b)) (Proc.devRef .tc main_v0) = _
  after_results
  rfl
theorem V_v1 (c : Dev nD) : (V m c main_v1 : S64x2048x64.Idx → EReal)
    = shapeCast S64x2048x64 (m ((c : Thread nD τ).loc main_arg1)) shapeCasts_S4x16x2048x64_S64x2048x64 := by
  show StableHlo.after hostOps0 (fun b => m (c, b)) (Proc.devRef .tc main_v1) = _
  after_results
  rfl
theorem V_v2 (c : Dev nD) : (V m c main_v2 : S64x2048x64.Idx → EReal)
    = shapeCast S64x2048x64 (m ((c : Thread nD τ).loc main_arg2)) shapeCasts_S4x16x2048x64_S64x2048x64 := by
  show StableHlo.after hostOps0 (fun b => m (c, b)) (Proc.devRef .tc main_v2) = _
  after_results
  rfl

/-! ## The result after the view back -/

theorem tail_v4 (c : Dev nD) :
    Pipeline.afterTail₀ cfgs (dats m) 0 (V0 m) [hostOps1] c main_v4
      = shapeCast S4x16x2048x64 ((dats m 0 c).arrAt 3 cfg0.N) shapeCasts_S64x2048x64_S4x16x2048x64 := by
  unfold Pipeline.afterTail₀
  show StableHlo.after hostOps1 _ (Proc.devRef .tc main_v4) = _
  after_results
  exact congrArg (fun a => shapeCast S4x16x2048x64 a shapeCasts_S64x2048x64_S4x16x2048x64)
    (Pipeline.withArrays_arr spec0 launch0.win.arr_inj c (V0 m c) (fun w => (dats m 0 c).arrAt w cfg0.N) 3)

/-- The region's output viewed back is the attention array of the arguments. -/
theorem value_eq (q k v : S4x16x2048x64.Idx → EReal) :
    shapeCast S4x16x2048x64 (G3 (shapeCast S64x2048x64 q shapeCasts_S4x16x2048x64_S64x2048x64)
      (shapeCast S64x2048x64 k shapeCasts_S4x16x2048x64_S64x2048x64)
      (shapeCast S64x2048x64 v shapeCasts_S4x16x2048x64_S64x2048x64)) shapeCasts_S64x2048x64_S4x16x2048x64
      = GK q k v := by
  funext x
  obtain ⟨b, h, i, d, rfl⟩ : ∃ (b : Fin 4) (h : Fin 16) (i : Fin 2048) (d : Fin 64), x = ix4 b h i d :=
    ⟨x 0, x 1, x 2, x 3, eq_ix4 x⟩
  have hg : b.val * 16 + h.val < 64 := by have := b.isLt; have := h.isLt; omega
  rw [view34_apply _ _ b h i d hg, GK_apply]
  show G3at _ _ _ (⟨b.val * 16 + h.val, hg⟩ : Fin 64) i d = _
  unfold G3at GKat
  simp only [view43_apply]

/-- The result buffer after the whole program, from the arrays at launch. -/
theorem result_eq (c : Dev nD) :
    shapeCast S4x16x2048x64 ((dats m 0 c).arrAt 3 cfg0.N) shapeCasts_S64x2048x64_S4x16x2048x64
      = GK (m ((c.tc : Thread nD τ).loc main_arg0)) (m ((c.tc : Thread nD τ).loc main_arg1)) (m ((c.tc : Thread nD τ).loc main_arg2)) := by
  rw [final3, V_v0, V_v1, V_v2]
  exact value_eq _ _ _

/-- THE RUN: every weakly fair execution terminates with the result buffer at the attention array of the arguments
    (first form) and the arguments unchanged. -/
theorem run_value : θ_run defs (onTc (τ := τ) (main (F := Ideal))) ⟨m, fun _ => 0, ρ⟩ fun r => ∀ c : Dev nD,
      r.2.mem ((c.tc : Thread nD τ).loc main_v4)
        = GK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(((h c).2 main_v4 (Pipeline.mem_restRefs_of main_v4 (by decide) (by decide))).trans (tail_v4 m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefAttn.lean ====
/-
  The reference program, read entry by entry.

  The reference computes dense softmax attention in the textbook order. For a batch `b`, a head `h`, a query
  position `i` and a feature `d` it forms, over the key positions `j`:

    the score        s j = (Σ_e q[b,h,i,e] · k[b,h,j,e]) · c,   with  c = 1 / sqrt 64  (stages 0 to 4);
    the row maximum  M   = max (−∞) (max_j s j) = sup_j s j                               (stages 5 to 7);
    the weight       w j = exp (s j − M)                                                  (stages 8 to 11);
    the row sum      L   = 0 + Σ_j w j = Σ_j w j                                          (stage 12);
    the probability  p j = w j / L                                                        (stages 13 to 15);
    the output       Σ_j p j · v[b,h,j,d]                                                 (stage 16).

  Each lemma below reads one stage at explicit coordinates; the last one assembles them into the row form
  `attnR s (v[b,h,·,d])` of the attention mathematics, which is what `G` holds at the entry `(b, h, i, d)`.
-/
import proofs.«166997_j2250562863803_2_alg».proof.Proof.Gen.ReferenceIdeal.Read
import proofs.«166997_j2250562863803_2_alg».proof.Proof.AttnMath
import proofs.«166997_j2250562863803_2_alg».proof.Proof.LibRowMax
import Idealize.ShloMosaic.PureOps.Reduce

noncomputable section

open scoped BigOperators

namespace Cert.RefAttn

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The index functions of the generated read lemmas, at explicit coordinates -/

/-- The left operand of the score contraction at `(b,h,i,j)`, term `e`, is the query entry `(b,h,i,e)`. -/
theorem lidx2_at (b : Fin 4) (h : Fin 16) (i j : Fin 2048) (e : Fin 64) :
    lidx_main_v2 (ix4 b h i j) e = ix4 b h i e :=
  funext fun a => Fin.ext (by match a with | ⟨0, _⟩ => rfl | ⟨1, _⟩ => rfl | ⟨2, _⟩ => rfl | ⟨3, _⟩ => rfl)

/-- The right operand of the score contraction at `(b,h,i,j)`, term `e`, is the key entry `(b,h,j,e)`. -/
theorem ridx2_at (b : Fin 4) (h : Fin 16) (i j : Fin 2048) (e : Fin 64) :
    ridx_main_v2 (ix4 b h i j) e = ix4 b h j e :=
  funext fun a => Fin.ext (by match a with | ⟨0, _⟩ => rfl | ⟨1, _⟩ => rfl | ⟨2, _⟩ => rfl | ⟨3, _⟩ => rfl)

/-- Broadcasting a row quantity back over the keys: entry `(b,h,i,j)` reads row `(b,h,i)`. -/
theorem idx89_at (b : Fin 4) (h : Fin 16) (i j : Fin 2048) :
    idx_main_v8 (idx_main_v9 (ix4 b h i j)) = ix3 b h i :=
  funext fun a => Fin.ext (by match a with | ⟨0, _⟩ => rfl | ⟨1, _⟩ => rfl | ⟨2, _⟩ => rfl)

theorem idx1314_at (b : Fin 4) (h : Fin 16) (i j : Fin 2048) :
    idx_main_v13 (idx_main_v14 (ix4 b h i j)) = ix3 b h i :=
  funext fun a => Fin.ext (by match a with | ⟨0, _⟩ => rfl | ⟨1, _⟩ => rfl | ⟨2, _⟩ => rfl)

/-- Term `j` of the row sum at `(b,h,i)` is the entry `(b,h,i,j)`. -/
theorem idx12_at (b : Fin 4) (h : Fin 16) (i j : Fin 2048) :
    idx_main_v12 (ix3 b h i) j = ix4 b h i j :=
  funext fun a => Fin.ext (by match a with | ⟨0, _⟩ => rfl | ⟨1, _⟩ => rfl | ⟨2, _⟩ => rfl | ⟨3, _⟩ => rfl)

/-- The left operand of the output contraction at `(b,h,i,d)`, term `j`, is the probability `(b,h,i,j)`. -/
theorem lidx16_at (b : Fin 4) (h : Fin 16) (i : Fin 2048) (d : Fin 64) (j : Fin 2048) :
    lidx_main_v16 (ix4 b h i d) j = ix4 b h i j :=
  funext fun a => Fin.ext (by match a with | ⟨0, _⟩ => rfl | ⟨1, _⟩ => rfl | ⟨2, _⟩ => rfl | ⟨3, _⟩ => rfl)

/-- The right operand of the output contraction at `(b,h,i,d)`, term `j`, is the value entry `(b,h,j,d)`. -/
theorem ridx16_at (b : Fin 4) (h : Fin 16) (i : Fin 2048) (d : Fin 64) (j : Fin 2048) :
    ridx_main_v16 (ix4 b h i d) j = ix4 b h j d :=
  funext fun a => Fin.ext (by match a with | ⟨0, _⟩ => rfl | ⟨1, _⟩ => rfl | ⟨2, _⟩ => rfl | ⟨3, _⟩ => rfl)

/-! ## The score -/

/-- Stage 4 at `(b,h,i,j)`: the dot product of query row `i` and key row `j`, times `1 / sqrt 64`. -/
theorem v4_at (q k : FVec Ideal S4x16x2048x64 .f32) (b : Fin 4) (h : Fin 16) (i j : Fin 2048) :
    val_main_v4 (F := Ideal) q k (ix4 b h i j)
      = (∑ e : Fin 64, q (ix4 b h i e) * k (ix4 b h j e)) * Cert.Attn.scaleR := by
  rw [val_main_v4_apply, val_main_v2_apply, val_main_v3_apply, val_main_v1_apply, val_main_v0_apply,
    val_main_cst_apply, val_main_cst_0_apply]
  simp only [Ideal.mulf_def, Ideal.hostDivf_def, Ideal.hostUnary_sqrt_def, Ideal.ofBits_def]
  unfold Cert.Attn.scaleR
  refine congrArg (· * _) (Finset.sum_congr rfl fun e _ => ?_)
  rw [lidx2_at, ridx2_at]

/-! ## The row maximum -/

/-- Row `(b,h,i)` with key coordinate `j` put back is `(b,h,i,j)`. -/
theorem lift3_at (hR : S4x16x2048x2048.Reduces [3] S4x16x2048) (b : Fin 4) (h : Fin 16) (i : Fin 2048)
    (j : Fin (S4x16x2048x2048.size 3)) :
    hR.lift (ix3 b h i) j = ix4 b h i (⟨j.val, j.isLt⟩ : Fin 2048) := by
  funext c; apply Fin.ext
  fin_cases c <;> rfl

/-- A maximum-reduction over the key axis started from the word of −∞, at row `(b,h,i)`, is the supremum over the
    keys `j` of the entries `(b,h,i,j)`. -/
theorem reduce_max_at (y : FVec Ideal S4x16x2048x2048 .f32) (b : Fin 4) (h : Fin 16) (i : Fin 2048) :
    Host.reduce FloatOps.maximumf y (val_main_cst_1 (F := Ideal)) reducesTo_S4x16x2048x2048_S4x16x2048_d3 h_S_ (ix3 b h i)
      = Cert.Attn.rowMax (fun j : Fin 2048 => y (ix4 b h i j)) := by
  have hR : S4x16x2048x2048.Reduces [3] S4x16x2048 := by decide
  rw [Host.reduce_eq_fold_single FloatOps.maximumf y _ reducesTo_S4x16x2048x2048_S4x16x2048_d3 hR h_S_]
  have hf : (y ∘ hR.lift (ix3 b h i)) = fun j : Fin 2048 => y (ix4 b h i j) :=
    funext fun j => congrArg y (lift3_at hR b h i j)
  refine (congrArg (fun f => Finset.fold (FloatOps.maximumf (F := Ideal) (φ := .f32))
    (val_main_cst_1 (F := Ideal) (Shape.Idx.first h_S_)) f (Finset.univ : Finset (Fin 2048))) hf).trans ?_
  show (Finset.univ : Finset (Fin 2048)).fold (max : EReal → EReal → EReal) (Ideal.ofBits .f32 0xFF800000#32) _ = _
  rw [Cert.LibRowMax.ofBits_neg_inf_f32]
  exact Cert.LibRowMax.fold_max_bot_eq_sup _ _

/-- Stage 5 at row `(b,h,i)`: the largest score of the row. -/
theorem v5_at (q k : FVec Ideal S4x16x2048x64 .f32) (b : Fin 4) (h : Fin 16) (i : Fin 2048) :
    val_main_v5 (F := Ideal) q k (ix3 b h i)
      = Cert.Attn.rowMax (fun j : Fin 2048 => val_main_v4 (F := Ideal) q k (ix4 b h i j)) := by
  unfold val_main_v5
  exact reduce_max_at (val_main_v4 (F := Ideal) q k) b h i

/-- Stage 7 at row `(b,h,i)`: the maximum of −∞ and the row maximum, which is the row maximum. -/
theorem v7_at (q k : FVec Ideal S4x16x2048x64 .f32) (b : Fin 4) (h : Fin 16) (i : Fin 2048) :
    val_main_v7 (F := Ideal) q k (ix3 b h i)
      = Cert.Attn.rowMax (fun j : Fin 2048 => val_main_v4 (F := Ideal) q k (ix4 b h i j)) := by
  rw [val_main_v7_apply, val_main_v6_apply, val_main_cst_2_apply, v5_at]
  simp only [Ideal.maximumf_def, Ideal.ofBits_def]
  rw [Cert.LibRowMax.ofBits_neg_inf_f32]
  exact max_eq_right bot_le

/-- Stage 9 at `(b,h,i,j)`: the row maximum of row `(b,h,i)`, whatever the key `j`. -/
theorem v9_at (q k : FVec Ideal S4x16x2048x64 .f32) (b : Fin 4) (h : Fin 16) (i j : Fin 2048) :
    val_main_v9 (F := Ideal) q k (ix4 b h i j) = val_main_v7 (F := Ideal) q k (ix3 b h i) := by
  rw [val_main_v9_apply, val_main_v8_apply]
  exact congrArg (val_main_v7 (F := Ideal) q k) (idx89_at b h i j)

/-! ## The weights, their sum, the probabilities -/

/-- Stage 11 at `(b,h,i,j)`: the exponential of the score less the row maximum. -/
theorem v11_at (q k : FVec Ideal S4x16x2048x64 .f32) (b : Fin 4) (h : Fin 16) (i j : Fin 2048) :
    val_main_v11 (F := Ideal) q k (ix4 b h i j)
      = Cert.Attn.wt (fun j' : Fin 2048 => val_main_v4 (F := Ideal) q k (ix4 b h i j')) j := by
  rw [val_main_v11_apply, val_main_v10_apply, v9_at, v7_at]
  simp only [Ideal.hostUnary_exp_def, Ideal.subf_def]
  unfold Cert.Attn.wt
  rfl

/-- Stage 12 at row `(b,h,i)`: zero plus the sum of the row's weights. -/
theorem v12_at (q k : FVec Ideal S4x16x2048x64 .f32) (b : Fin 4) (h : Fin 16) (i : Fin 2048) :
    val_main_v12 (F := Ideal) q k (ix3 b h i)
      = Cert.Attn.den (fun j' : Fin 2048 => val_main_v4 (F := Ideal) q k (ix4 b h i j')) := by
  rw [val_main_v12_apply, val_main_cst_3_apply]
  simp only [Ideal.ofBits_def]
  rw [Ideal.ofBits_zero_f32, zero_add]
  unfold Cert.Attn.den
  refine Finset.sum_congr rfl fun j _ => ?_
  rw [idx12_at, v11_at]

/-- Stage 14 at `(b,h,i,j)`: the row sum of row `(b,h,i)`, whatever the key `j`. -/
theorem v14_at (q k : FVec Ideal S4x16x2048x64 .f32) (b : Fin 4) (h : Fin 16) (i j : Fin 2048) :
    val_main_v14 (F := Ideal) q k (ix4 b h i j) = val_main_v12 (F := Ideal) q k (ix3 b h i) := by
  rw [val_main_v14_apply, val_main_v13_apply]
  exact congrArg (val_main_v12 (F := Ideal) q k) (idx1314_at b h i j)

/-- Stage 15 at `(b,h,i,j)`: the weight divided by the row sum. -/
theorem v15_at (q k : FVec Ideal S4x16x2048x64 .f32) (b : Fin 4) (h : Fin 16) (i j : Fin 2048) :
    val_main_v15 (F := Ideal) q k (ix4 b h i j)
      = Ideal.div (Cert.Attn.wt (fun j' : Fin 2048 => val_main_v4 (F := Ideal) q k (ix4 b h i j')) j)
          (Cert.Attn.den (fun j' : Fin 2048 => val_main_v4 (F := Ideal) q k (ix4 b h i j'))) := by
  rw [val_main_v15_apply, v14_at, v12_at, v11_at]
  simp only [Ideal.hostDivf_def]

/-! ## The output -/

/-- The reference's result is the attention array `G`: at `(b,h,i,d)` the probabilities of row `(b,h,i)` weigh the
    column `d` of the values. -/
theorem ref_eq_G (q k v : FVec Ideal Cert.ReferenceIdeal.S4x16x2048x64 .f32) :
    Cert.ReferenceIdeal.Read.val_main_v16 (F := Ideal) q k v = Cert.Attn.G q k v := by
  funext x
  obtain ⟨b, h, i, d, rfl⟩ : ∃ (b : Fin 4) (h : Fin 16) (i : Fin 2048) (d : Fin 64), x = ix4 b h i d :=
    ⟨x 0, x 1, x 2, x 3, eq_ix4 x⟩
  rw [Cert.Attn.G_apply, val_main_v16_apply]
  unfold Cert.Attn.GRat
  -- the row of scores, as the reference holds it and as the mathematics writes it
  have hs : (fun j : Fin 2048 => (∑ e : Fin 64, q (ix4 b h i e) * k (ix4 b h j e)) * Cert.Attn.scaleR)
      = fun j : Fin 2048 => val_main_v4 (F := Ideal) q k (ix4 b h i j) :=
    funext fun j => (v4_at q k b h i j).symm
  refine Eq.trans ?_ (congrArg (fun s => Cert.Attn.attnR s fun j => v (ix4 b h j d)) hs).symm
  unfold Cert.Attn.attnR
  refine Finset.sum_congr rfl fun j _ => ?_
  rw [lidx16_at, ridx16_at, v15_at]

end Cert.RefAttn

end
-- ==== Proof.LibAllFinite.lean ====
/-
  Reading a precondition's words. A precondition printed from `jnp.all(jnp.abs(x) < inf) & … & jnp.all(s > 0)` is a
  conjunction of `and`-reductions of comparison words, read at its one index. A comparison word that is `1` is the
  comparison of the two extended reals; `|x| < +∞` makes `x` a real number; hence an all-reduction of `|a| < +∞`
  that is `1` makes every entry of `a` real, and a word `a > b` at an index is `b j < a j`.
-/
import proofs.«166997_j2250562863803_2_alg».proof.Proof.LibRealEntries
import Idealize.ShloMosaic.Lib.ReduceAll
import Idealize.ShloMosaic.Lib.ValueIdx
import Idealize.ShloMosaic.PureOps.Ideal.Laws

noncomputable section

namespace Cert.LibAllFinite

open Idealize.ShloMosaic Idealize.ShloMosaic.ValueIdx Cert.LibRealEntries

instance : Subsingleton (⟨0, ![]⟩ : Shape).Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- A true comparison word is the comparison. -/
theorem lt_of_cmp_olt {x y : EReal} (h : Ideal.cmp .olt x y = 1#1) : x < y := by
  by_contra hn
  have : decide (x < y) = false := decide_eq_false hn
  simp [Ideal.cmp, this] at h

theorem lt_of_cmp_ogt {x y : EReal} (h : Ideal.cmp .ogt x y = 1#1) : y < x := by
  by_contra hn
  have : decide (y < x) = false := decide_eq_false hn
  simp [Ideal.cmp, this] at h

/-- `|x| < +∞` makes `x` a real number. -/
theorem isReal_of_abs_lt_top (x : EReal) (h : max x (-x) < (⊤ : EReal)) : IsReal x := by
  induction x using EReal.rec with
  | bot => simp at h
  | coe r => exact ⟨r, rfl⟩
  | top => simp at h

/-- `jnp.all(|a| < +∞)` that is true makes every entry of `a` a real number. -/
theorem real_of_all {s : Shape} {axes : List (Fin s.rank)} (a : FVec Ideal s .f32)
    (hb : (⟨0, ![]⟩ : Shape).BroadcastsInDim s (![] : Fin 0 → Fin s.rank))
    (init : IVec ⟨0, ![]⟩ 1) (hred : s.ReducesTo axes ⟨0, ![]⟩) (hu : 0 < (⟨0, ![]⟩ : Shape).numel)
    (h : Host.reduce IntOp.andi
      (cmpf .olt (Host.absf a) (broadcastInDim s ![] hb (constant (F := Ideal) ⟨0, ![]⟩ .f32 0x7F800000#32)))
      init hred hu ix0 = 1#1) (i : s.Idx) : IsReal (a i) := by
  have hi := Host.reduce_andi_all _ init hred hu ix0 h i
  have h1 : Ideal.cmp .olt (max (a i) (-(a i))) (Ideal.ofBits .f32 0x7F800000#32) = 1#1 := hi
  rw [ofBits_inf] at h1
  exact isReal_of_abs_lt_top _ (lt_of_cmp_olt h1)

/-- A true comparison word between two arrays at an index is the inequality of their entries. -/
theorem lt_of_cmpf_ogt {s : Shape} (a b : FVec Ideal s .f32) (j : s.Idx) (h : cmpf .ogt a b j = 1#1) : b j < a j :=
  lt_of_cmp_ogt h

end Cert.LibAllFinite

end
-- ==== Proof.FiniteInputs.lean ====
/-
  What the precondition says.

  The precondition is the conjunction of three statements, one per argument: "every entry has absolute value below
  +∞".  Read at its one index, a conjunction that is true has all three conjuncts true, and an all-reduction of the
  comparison `|x| < +∞` that is true makes every entry of `x` a real number.
-/
import proofs.«166997_j2250562863803_2_alg».proof.Pre_finite_inputs
import proofs.«166997_j2250562863803_2_alg».proof.Proof.LibAllFinite
import Idealize.ShloMosaic.Lib.Affine
import Idealize.ShloMosaic.Lib.ReduceAll

noncomputable section

namespace Cert.FiniteInputs

open Idealize.ShloMosaic Idealize.ShloMosaic.ValueIdx Cert.LibRealEntries Cert.LibAllFinite

/-- Under the precondition every entry of each of the three arguments is a real number. -/
theorem real_of_pre [Cert.Pre_finite_inputs.Facts] (x0 x1 x2 : FVec Ideal Cert.Pre_finite_inputs.S4x16x2048x64 .f32)
    (h : Cert.Pre_finite_inputs.fn (F := Ideal) x0 x1 x2 = fun _ => 1#1) :
    (∀ i, IsReal (x0 i)) ∧ (∀ i, IsReal (x1 i)) ∧ (∀ i, IsReal (x2 i)) := by
  have h0 := congrFun h ix0
  dsimp only [Cert.Pre_finite_inputs.fn] at h0
  obtain ⟨h01, h2⟩ := IntOp.andi_eq_one.1 h0
  obtain ⟨h00, h1⟩ := IntOp.andi_eq_one.1 h01
  exact ⟨fun i => real_of_all x0 _ _ _ _ h00 i, fun i => real_of_all x1 _ _ _ _ h1 i, fun i => real_of_all x2 _ _ _ _ h2 i⟩

end Cert.FiniteInputs

end
-- ==== Proof.lean ====
/-
  Dense softmax attention over `[4, 16, 2048, 64]` queries, keys and values: a tiled kernel against the plain
  array program.

  Both programs compute, for every batch `b`, head `h`, position `i` and feature `d`,

      out (b, h, i, d) = Σ_j softmax_j (q (b, h, i, ·) · k (b, h, j, ·) / 8) · v (b, h, j, d).

  The kernel scales each query feature by the word of 0.125 before the dot product, works on blocks of 1024 query rows
  against whole heads of keys and values, and divides each row of the weighted sum of values by the row's sum of
  weights afterwards.  The reference scales the dot product by `1 / sqrt 64`, and divides the weights by their sum
  before multiplying by the values.  On the extended reals `sqrt 64 = 8` and the word of 0.125 is `1/8`; a nonnegative
  finite factor goes through a finite sum, so the scores agree; and when the queries and keys are real numbers every
  row's sum of weights is at least one, so dividing before or after the weighted sum is the same
  (`Cert.Attn.attnK_eq_attnR`).  That the inputs are real is what the precondition says.

  The three frames are the programs' generated runs; the idealised kernel is the kernel's own text read at the exact
  instance, so there is nothing to preserve beyond that.
-/
import proofs.«166997_j2250562863803_2_alg».proof.Defs
import proofs.«166997_j2250562863803_2_alg».proof.Proof.Gen.Kernel
import proofs.«166997_j2250562863803_2_alg».proof.Proof.Gen.Kernel.Skeleton
import proofs.«166997_j2250562863803_2_alg».proof.Proof.Gen.Kernel.Launch
import proofs.«166997_j2250562863803_2_alg».proof.Proof.Gen.Kernel.Points
import proofs.«166997_j2250562863803_2_alg».proof.Proof.Gen.Kernel.Frame
import proofs.«166997_j2250562863803_2_alg».proof.Proof.Gen.KernelIdeal
import proofs.«166997_j2250562863803_2_alg».proof.Proof.Gen.KernelIdeal.Skeleton
import proofs.«166997_j2250562863803_2_alg».proof.Proof.Gen.KernelIdeal.Launch
import proofs.«166997_j2250562863803_2_alg».proof.Proof.Gen.KernelIdeal.Points
import proofs.«166997_j2250562863803_2_alg».proof.Proof.Gen.KernelIdeal.Frame
import proofs.«166997_j2250562863803_2_alg».proof.Proof.Gen.ReferenceIdeal
import proofs.«166997_j2250562863803_2_alg».proof.Proof.Gen.ReferenceIdeal.Run
import proofs.«166997_j2250562863803_2_alg».proof.Proof.Gen.ReferenceIdeal.Read
import proofs.«166997_j2250562863803_2_alg».proof.Proof.Gen.Pre_finite_inputs
import proofs.«166997_j2250562863803_2_alg».proof.Proof.KernelRun
import proofs.«166997_j2250562863803_2_alg».proof.Proof.RefAttn
import proofs.«166997_j2250562863803_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_k : Cert.frame_Kernel := fun m ρ _ => Cert.Kernel.Gen.frame m ρ

/-- So does the kernel read at the exact instance. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the exact instance. -/
theorem preserves : Cert.preserves_Kernel_KernelIdeal := trivial

/-- Both programs end with the attention array of the arguments: the kernel in the form that divides after the
    weighted sum, which on real queries and keys is the reference's form. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Run.run_value m ρ)
    obtain ⟨hq, hk, -⟩ := Cert.FiniteInputs.real_of_pre _ _ _ (hpre c)
    exact Cert.Attn.GK_eq_G _ _ _ hq hk
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.RefAttn.ref_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
